-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S1025x512 : Shape := ⟨2, ![1025, 512]⟩
abbrev S512x1024 : Shape := ⟨2, ![512, 1024]⟩
abbrev S512 : Shape := ⟨1, ![512]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel
  bcast_S_S1025x512 : S_.BroadcastsInDim S1025x512 (![] : Fin 0 → Fin S1025x512.rank)
  reducesTo_S1025x512_S_d0_1 : S1025x512.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S32x512x512 .f32) (main_arg1 : FVec F S1025x512 .f32) (main_arg2 : FVec F S512x1024 .f32) (main_arg3 : FVec F S512 .f32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S1025x512 .f32 := Host.absf main_arg1
  let main_cst_0 : FVec F S_ .f32 := constant S_ .f32 0x7F800000#32
  let main_v5 : FVec F S1025x512 .f32 := broadcastInDim S1025x512 ![] bcast_S_S1025x512 main_cst_0
  let main_v6 : IVec S1025x512 1 := cmpf .olt main_v4 main_v5
  let main_c_1 : IVec S_ 1 := constantI S_ 1 1#1
  let main_v7 : IVec S_ 1 := (fun x v => Host.reduce IntOp.andi x v reducesTo_S1025x512_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S32x512x512 : Shape := ⟨3, ![32, 512, 512]⟩
abbrev S1025x512 : Shape := ⟨2, ![1025, 512]⟩
abbrev S512x1024 : Shape := ⟨2, ![512, 1024]⟩
abbrev S512 : Shape := ⟨1, ![512]⟩
abbrev S512x512 : Shape := ⟨2, ![512, 512]⟩
abbrev S1x512 : Shape := ⟨2, ![1, 512]⟩
abbrev S2x512x512 : Shape := ⟨3, ![2, 512, 512]⟩
abbrev S1024x512 : Shape := ⟨2, ![1024, 512]⟩
abbrev S1x512x512 : Shape := ⟨3, ![1, 512, 512]⟩

abbrev nBuf : Space → Nat
  | .hbm => 13
  | .vmem => 10
  | .smem => 0
  | _ => 0

abbrev bufTy : (tb : Table) → Fin (tcTables nBuf tb) → BufTy
  | .hbm, ⟨0, _⟩ => ⟨S32x512x512, .f32⟩
  | .hbm, ⟨1, _⟩ => ⟨S1025x512, .f32⟩
  | .hbm, ⟨2, _⟩ => ⟨S512x1024, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .bf16⟩
  | .hbm, ⟨8, _⟩ => ⟨S512x512, .f32⟩
  | .hbm, ⟨9, _⟩ => ⟨S512x512, .f32⟩
  | .hbm, ⟨10, _⟩ => ⟨S1x512, .f32⟩
  | .hbm, ⟨11, _⟩ => ⟨S512x512, .f32⟩
  | .hbm, ⟨12, _⟩ => ⟨S32x512x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .f32⟩
  | .local _ .vmem, ⟨4, _⟩ => ⟨S2x512x512, .f32⟩
  | .local _ .vmem, ⟨5, _⟩ => ⟨S2x512x512, .f32⟩
  | .local _ .vmem, ⟨6, _⟩ => ⟨S512x512, .bf16⟩
  | .local _ .vmem, ⟨7, _⟩ => ⟨S512x512, .f32⟩
  | .local _ .vmem, ⟨8, _⟩ => ⟨S2x512x512, .f32⟩
  | .local _ .vmem, ⟨9, _⟩ => ⟨S2x512x512, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S1025x512_S512x512_0_0 : S1025x512.Slices ![0, 0] S512x512
  slices_S512x1024_S512x512_0_0 : S512x1024.Slices ![0, 0] S512x512
  transposes_S512x512_S512x512_1_0 : S512x512.Transposes [1, 0] S512x512
  bitsLt_bf16_f32 : FTy.bits .bf16 < FTy.bits .f32
  slices_S512x1024_S512x512_0_512 : S512x1024.Slices ![0, 512] S512x512
  bcast_S512_S1x512_1 : S512.BroadcastsInDim S1x512 (![1] : Fin 1 → Fin S1x512.rank)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S2x512x512_S2x512x512_0_0_0 : ∀ a, (![0, 0, 0] : Fin 3 → Nat) a + S2x512x512.size a ≤ S2x512x512.size a
  h_S2x512x512 : 0 < S2x512x512.numel
  shapeCasts_S2x512x512_S1024x512 : S2x512x512.ShapeCasts S1024x512
  shapeCasts_S1024x512_S2x512x512 : S1024x512.ShapeCasts S2x512x512
  shapeCasts_S512x512_S1x512x512 : S512x512.ShapeCasts S1x512x512
  broadcasts_S1x512x512_S2x512x512 : S1x512x512.Broadcasts S2x512x512
  dot_S512x512_S512x512_S512x512_1_0_0_1_n_n_wf : DotDims.WF S512x512 S512x512 S512x512 [1] [0] [0] [1] [] []
  dot_S1024x512_S512x512_S1024x512_1_0_0_1_n_n_wf : DotDims.WF S1024x512 S512x512 S1024x512 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x512x512.size a ≤ S32x512x512.size a
  hwx1_0 : ∀ i : grid1.Coords, EltTy.bits .f32 = 32 ∨ (Rect.block (s := S32x512x512) S2x512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x512x512.size a ≤ S32x512x512.size a
  hwx1_3 : ∀ i : grid1.Coords, EltTy.bits .f32 = 32 ∨ (Rect.block (s := S32x512x512) S2x512x512.size (cc1_transform_3 i) (hinb1_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_v5) false false (stage0_1 0) (sem0_1 0) (Memref.isWhole_whole _) (hstage0_1 0)

abbrev win0_2 : Pipeline.Window sig grid0 :=
  Pipeline.Window.whole (Memref.whole main_v6) false false (stage0_2 0) (sem0_2 0) (Memref.isWhole_whole _) (hstage0_2 0)

abbrev win0_3 : Pipeline.Window sig grid0 :=
  Pipeline.Window.whole (Memref.whole main_v7) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S2x512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x512x512 : Shape := ⟨3, ![32, 512, 512]⟩
abbrev S1025x512 : Shape := ⟨2, ![1025, 512]⟩
abbrev S512x1024 : Shape := ⟨2, ![512, 1024]⟩
abbrev S512 : Shape := ⟨1, ![512]⟩
abbrev S512x512 : Shape := ⟨2, ![512, 512]⟩
abbrev S1x512 : Shape := ⟨2, ![1, 512]⟩
abbrev S1x512x512 : Shape := ⟨3, ![1, 512, 512]⟩

abbrev nBuf : Space → Nat
  | .hbm => 11
  | .vmem => 8
  | .smem => 0
  | _ => 0

abbrev bufTy : (tb : Table) → Fin (tcTables nBuf tb) → BufTy
  | .hbm, ⟨0, _⟩ => ⟨S32x512x512, .f32⟩
  | .hbm, ⟨1, _⟩ => ⟨S1025x512, .f32⟩
  | .hbm, ⟨2, _⟩ => ⟨S512x1024, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S1x512, .f32⟩
  | .hbm, ⟨10, _⟩ => ⟨S32x512x512, .f32⟩
  | .local _ .vmem, ⟨0, _⟩ => ⟨S1x512x512, .f32⟩
  | .local _ .vmem, ⟨1, _⟩ => ⟨S1x512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S1x512, .f32⟩
  | .local _ .vmem, ⟨6, _⟩ => ⟨S1x512x512, .f32⟩
  | .local _ .vmem, ⟨7, _⟩ => ⟨S1x512x512, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S1025x512_S512x512_0_0 : S1025x512.Slices ![0, 0] S512x512
  slices_S512x1024_S512x512_0_0 : S512x1024.Slices ![0, 0] S512x512
  transposes_S512x512_S512x512_1_0 : S512x512.Transposes [1, 0] S512x512
  slices_S512x1024_S512x512_0_512 : S512x1024.Slices ![0, 512] S512x512
  bcast_S512_S1x512_1 : S512.BroadcastsInDim S1x512 (![1] : Fin 1 → Fin S1x512.rank)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S512x512_S1x512x512 : S512x512.ShapeCasts S1x512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S32x512x512.size a
  hwx0_5 : ∀ i : grid0.Coords, EltTy.bits .f32 = 32 ∨ (Rect.block (s := S32x512x512) S1x512x512.size (cc0_transform_5 i) (hinb0_5 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.KernelBlocks.lean ====
/-
  What each of the kernel's two bodies stores, read at an entry, at the ideal instance.

  The first body (no grid) multiplies the 512 × 512 position rows by the 512 × 512 matrix and adds the bias row to
  every row: its entry `(s, h)` is Σₖ x₀(s, k) · x₁(k, h) + x₂(0, h).

  The second body works on two batches at a time: it flattens its 2 × 512 × 512 block to 1024 × 512 (row `512·p + r`
  is row `r` of batch `p`), multiplies by the 512 × 512 matrix, reshapes back, and adds the 512 × 512 term to each of
  the two batches: its entry `(p, r, h)` is Σₖ x₀(p, r, k) · x₁(k, h) + x₂(r, h). A change of float format is the
  identity on extended reals, so the bf16 casts disappear.
-/
import proofs.«142943_g2000502533916053_pallasbulk_76_2_alg».proof.Proof.Gen.KernelIdeal.Skeleton
import proofs.«142943_g2000502533916053_pallasbulk_76_2_alg».proof.Proof.LibMatmulNN
import Idealize.ShloMosaic.Lib.Pipeline.Value
import Idealize.ShloMosaic.Lib.ValueLayout
import Idealize.ShloMosaic.PureOps.Ideal.Laws

noncomputable section

open scoped BigOperators

namespace Cert.KernelIdeal.Blocks

open Cert.KernelIdeal Cert.KernelIdeal.Gen Idealize.ShloMosaic Idealize.ShloMosaic.ValueIdx

/-- Row `r` of batch `p` in the flattened 1024-row matrix. -/
def flatRow (p : Fin 2) (r : Fin 512) : Fin 1024 := ⟨p.val * 512 + r.val, by have := p.isLt; have := r.isLt; omega⟩

/-- Flattening two stacked 512 × 512 matrices: row `512·p + r` of the result is row `r` of matrix `p`. -/
theorem flatten_apply {α : Type} (x : (⟨3, ![2, 512, 512]⟩ : Shape).Idx → α)
    (hc : (⟨3, ![2, 512, 512]⟩ : Shape).ShapeCasts ⟨2, ![1024, 512]⟩) (p : Fin 2) (r k : Fin 512) :
    shapeCast ⟨2, ![1024, 512]⟩ x hc (ix2 (flatRow p r) k) = x (ix3 p r k) :=
  shapeCast_apply x hc _ _ (by
    rw [Shape.rowMajor_val_three, Shape.rowMajor_val_two]
    rfl)

/-- The inverse reshape: entry `(p, r, c)` is the flat matrix's entry `(512·p + r, c)`. -/
theorem unflatten_apply {α : Type} (y : (⟨2, ![1024, 512]⟩ : Shape).Idx → α)
    (hc : (⟨2, ![1024, 512]⟩ : Shape).ShapeCasts ⟨3, ![2, 512, 512]⟩) (p : Fin 2) (r c : Fin 512) :
    shapeCast ⟨3, ![2, 512, 512]⟩ y hc (ix3 p r c) = y (ix2 (flatRow p r) c) :=
  shapeCast_apply y hc _ _ (by
    rw [Shape.rowMajor_val_three, Shape.rowMajor_val_two]
    rfl)

/-- One 512 × 512 matrix broadcast over the two batches reads the same matrix at every batch. -/
theorem bcast2_apply {α : Type} (z : (⟨3, ![1, 512, 512]⟩ : Shape).Idx → α)
    (hb : (⟨3, ![1, 512, 512]⟩ : Shape).Broadcasts ⟨3, ![2, 512, 512]⟩) (p : Fin 2) (r c : Fin 512) :
    broadcastTo ⟨3, ![2, 512, 512]⟩ z hb (ix3 p r c) = z (ix3 (0 : Fin 1) r c) := by
  refine broadcastTo_apply z hb (ix3 p r c) (ix3 (0 : Fin 1) r c) fun ax => ?_
  match ax with
  | ⟨0, _⟩ => rfl
  | ⟨1, _⟩ => rfl
  | ⟨2, _⟩ => rfl

/-- The first body's stored value at `(s, h)`: the row-by-column product plus the bias at column `h`. -/
theorem pay0_apply (x0 x1 : Vec Ideal S512x512 .f32) (x2 : Vec Ideal S1x512 .f32) (s h : Fin 512) :
    k0_pay1 (F := Ideal) x0 x1 x2 (ix2 s h)
      = (∑ k : Fin 512, x0 (ix2 s k) * x1 (ix2 k h)) + x2 (ix2 (0 : Fin 1) h) := by
  unfold k0_pay1
  rw [addf_apply, shapeCast_self, shapeCast_self, shapeCast_self,
    Cert.LibMatmulNN.matmul_zero_apply' _ rfl rfl rfl rfl rfl rfl, broadcastTo_1b_ab_apply]

/-- The second body's stored value at `(p, r, h)`: row `r` of batch `p` times column `h`, plus the term at `(r, h)`. -/
theorem pay1_apply (x0 : Vec Ideal S2x512x512 .f32) (x1 : Vec Ideal S512x512 .bf16) (x2 : Vec Ideal S512x512 .f32)
    (p : Fin 2) (r h : Fin 512) :
    k1_pay1 (F := Ideal) x0 x1 x2 (ix3 p r h)
      = (∑ k : Fin 512, x0 (ix3 p r k) * x1 (ix2 k h)) + x2 (ix2 r h) := by
  unfold k1_pay1
  rw [addf_apply, unflatten_apply, Cert.LibMatmulNN.matmul_zero_apply' _ rfl rfl rfl rfl rfl rfl, bcast2_apply,
    shapeCast_ab_1ab_apply, shapeCast_self, shapeCast_self]
  refine congrArg (· + x2 (ix2 r h)) (Finset.sum_congr rfl fun k _ => ?_)
  rw [truncf_apply, flatten_apply]

end Cert.KernelIdeal.Blocks

end
-- ==== Proof.Spec.lean ====
/-
  The result of the position-embedding projection as functions of arrays, entry by entry, on the extended reals.

  With `x` the batch of inputs (32 × 512 × 512), `p` the first 512 rows of the position table, `wx` and `wp` the two
  transposed halves of the projection matrix (each 512 × 512) and `b` the bias as a one-row matrix, the entry
  `(n, s, h)` of the result is

    Σₖ x(n, s, k) · wx(k, h)  +  Σₖ p(s, k) · wp(k, h)  +  b(0, h).

  One program computes the batch-independent part `posTerm = Σₖ p(s, k) · wp(k, h) + b(0, h)` once and adds it to each
  batch's product (`twoStep`); the other adds the two products and then the bias at every batch (`oneStep`). The two
  groupings agree because addition of extended reals is associative (`twoStep_eq_oneStep`); no finiteness is used.
-/
import Idealize.ShloMosaic.PureOps.Ideal
import Idealize.ShloMosaic.Lib.ValueIdx

noncomputable section

open scoped BigOperators

namespace Cert.Spec

open Idealize.ShloMosaic Idealize.ShloMosaic.ValueIdx

/-- The product of row `s` of batch `n` of `x` with column `h` of `w`. -/
def rowDot (x : (⟨3, ![32, 512, 512]⟩ : Shape).Idx → EReal) (w : (⟨2, ![512, 512]⟩ : Shape).Idx → EReal)
    (n : Fin 32) (s : Fin 512) (h : Fin 512) : EReal :=
  ∑ k : Fin 512, x (ix3 n s k) * w (ix2 k h)

/-- The product of row `s` of the matrix `p` with column `h` of `w`. -/
def matDot (p w : (⟨2, ![512, 512]⟩ : Shape).Idx → EReal) (s : Fin 512) (h : Fin 512) : EReal :=
  ∑ k : Fin 512, p (ix2 s k) * w (ix2 k h)

/-- The batch-independent term: the position rows projected, plus the bias. -/
def posTerm (p wp : (⟨2, ![512, 512]⟩ : Shape).Idx → EReal) (b : (⟨2, ![1, 512]⟩ : Shape).Idx → EReal) :
    (⟨2, ![512, 512]⟩ : Shape).Idx → EReal :=
  fun i => matDot p wp (i 0) (i 1) + b (ix2 (0 : Fin 1) (i 1))

/-- Each batch's product plus a given 512 × 512 term `c`, the same for every batch. -/
def addTerm (x : (⟨3, ![32, 512, 512]⟩ : Shape).Idx → EReal) (wx c : (⟨2, ![512, 512]⟩ : Shape).Idx → EReal) :
    (⟨3, ![32, 512, 512]⟩ : Shape).Idx → EReal :=
  fun i => rowDot x wx (i 0) (i 1) (i 2) + c (ix2 (i 1) (i 2))

/-- The result computed in two steps: the batch-independent term first, then added to each batch's product. -/
def twoStep (x : (⟨3, ![32, 512, 512]⟩ : Shape).Idx → EReal) (p wx wp : (⟨2, ![512, 512]⟩ : Shape).Idx → EReal)
    (b : (⟨2, ![1, 512]⟩ : Shape).Idx → EReal) : (⟨3, ![32, 512, 512]⟩ : Shape).Idx → EReal :=
  addTerm x wx (posTerm p wp b)

/-- The result computed in one step per batch: the two products added, then the bias. -/
def oneStep (x : (⟨3, ![32, 512, 512]⟩ : Shape).Idx → EReal) (p wx wp : (⟨2, ![512, 512]⟩ : Shape).Idx → EReal)
    (b : (⟨2, ![1, 512]⟩ : Shape).Idx → EReal) : (⟨3, ![32, 512, 512]⟩ : Shape).Idx → EReal :=
  fun i => (rowDot x wx (i 0) (i 1) (i 2) + matDot p wp (i 1) (i 2)) + b (ix2 (0 : Fin 1) (i 2))

/-- The two groupings of the three summands agree: addition of extended reals is associative. -/
theorem twoStep_eq_oneStep (x : (⟨3, ![32, 512, 512]⟩ : Shape).Idx → EReal) (p wx wp : (⟨2, ![512, 512]⟩ : Shape).Idx → EReal)
    (b : (⟨2, ![1, 512]⟩ : Shape).Idx → EReal) : twoStep x p wx wp b = oneStep x p wx wp b := by
  funext i
  show rowDot x wx (i 0) (i 1) (i 2) + (matDot p wp (i 1) (i 2) + b (ix2 (0 : Fin 1) (i 2)))
    = (rowDot x wx (i 0) (i 1) (i 2) + matDot p wp (i 1) (i 2)) + b (ix2 (0 : Fin 1) (i 2))
  exact (add_assoc _ _ _).symm

end Cert.Spec

end
-- ==== Proof.KernelArrays.lean ====
/-
  From what a grid point writes back to the whole array, for the kernel's two regions, at the ideal instance.

  Both statements are about a region entered with arbitrary buffer contents `V`.

  The first region has no grid: every window's block is its whole array, the one point writes the whole 512 × 512
  result, and that result is `Spec.posTerm` of the three arrays the region reads (the position rows, the matrix, the
  bias row).

  The second region has 16 points; point `t` reads batches `2t` and `2t + 1` of the input and the two resident
  512 × 512 arrays whole, and writes batches `2t` and `2t + 1` of the result. Entry `(p, r, h)` of its block is entry
  `(2t + p, r, h)` of `Spec.addTerm` of the three arrays, and the 16 blocks cover the 32 batches (batch `n` lies in
  the block of point `n / 2`), so the array after the region is `Spec.addTerm` of them.
-/
import proofs.«142943_g2000502533916053_pallasbulk_76_2_alg».proof.Proof.Gen.KernelIdeal.Frame
import proofs.«142943_g2000502533916053_pallasbulk_76_2_alg».proof.Proof.KernelBlocks
import proofs.«142943_g2000502533916053_pallasbulk_76_2_alg».proof.Proof.Spec
import Idealize.ShloMosaic.Lib.Pipeline.Value

noncomputable section

open scoped BigOperators

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl

/-! ## The first region: one point, whole arrays -/

/-- An element of a whole-array block sits in the array at its own coordinates (the block index is zero on both axes). -/
theorem emb0_0 (t : Fin cfg0.N) (y : S512x512.Idx) : ((cfg0.win 0).blk t).view.emb y = y := by
  funext a; apply Fin.ext
  match a with
  | ⟨0, _⟩ =>
    show win0_0.index t (0 : Fin 2) * 512 + 1 * (y 0).val = (y 0).val
    have e : win0_0.index t (0 : Fin 2) = 0 := rfl
    omega
  | ⟨1, _⟩ =>
    show win0_0.index t (1 : Fin 2) * 512 + 1 * (y 1).val = (y 1).val
    have e : win0_0.index t (1 : Fin 2) = 0 := rfl
    omega
theorem emb0_1 (t : Fin cfg0.N) (y : S512x512.Idx) : ((cfg0.win 1).blk t).view.emb y = y := by
  funext a; apply Fin.ext
  match a with
  | ⟨0, _⟩ =>
    show win0_1.index t (0 : Fin 2) * 512 + 1 * (y 0).val = (y 0).val
    have e : win0_1.index t (0 : Fin 2) = 0 := rfl
    omega
  | ⟨1, _⟩ =>
    show win0_1.index t (1 : Fin 2) * 512 + 1 * (y 1).val = (y 1).val
    have e : win0_1.index t (1 : Fin 2) = 0 := rfl
    omega
theorem emb0_2 (t : Fin cfg0.N) (y : S1x512.Idx) : ((cfg0.win 2).blk t).view.emb y = y := by
  funext a; apply Fin.ext
  match a with
  | ⟨0, _⟩ =>
    show win0_2.index t (0 : Fin 2) * 1 + 1 * (y 0).val = (y 0).val
    have e : win0_2.index t (0 : Fin 2) = 0 := rfl
    omega
  | ⟨1, _⟩ =>
    show win0_2.index t (1 : Fin 2) * 512 + 1 * (y 1).val = (y 1).val
    have e : win0_2.index t (1 : Fin 2) = 0 := rfl
    omega
theorem emb0_3 (t : Fin cfg0.N) (y : S512x512.Idx) : ((cfg0.win 3).blk t).view.emb y = y := by
  funext a; apply Fin.ext
  match a with
  | ⟨0, _⟩ =>
    show win0_3.index t (0 : Fin 2) * 512 + 1 * (y 0).val = (y 0).val
    have e : win0_3.index t (0 : Fin 2) = 0 := rfl
    omega
  | ⟨1, _⟩ =>
    show win0_3.index t (1 : Fin 2) * 512 + 1 * (y 1).val = (y 1).val
    have e : win0_3.index t (1 : Fin 2) = 0 := rfl
    omega

/-- So each input window's block is the array it stages. -/
theorem iblk0_0 (c : Dev nD) (t : Fin cfg0.N) : iblk0 V c 0 t = V c main_v0 := by
  funext y
  show V c main_v0 (((cfg0.win 0).blk t).view.emb y) = V c main_v0 y
  rw [emb0_0]
theorem iblk0_1 (c : Dev nD) (t : Fin cfg0.N) : iblk0 V c 1 t = V c main_v5 := by
  funext y
  show V c main_v5 (((cfg0.win 1).blk t).view.emb y) = V c main_v5 y
  rw [emb0_1]
theorem iblk0_2 (c : Dev nD) (t : Fin cfg0.N) : iblk0 V c 2 t = V c main_v6 := by
  funext y
  show V c main_v6 (((cfg0.win 2).blk t).view.emb y) = V c main_v6 y
  rw [emb0_2]

/-- The first body's stored value is the batch-independent term of its three operands, entry by entry. -/
theorem pay0_eq_posTerm (A0 A1 : Vec Ideal S512x512 .f32) (A2 : Vec Ideal S1x512 .f32) :
    k0_pay1 (F := Ideal) A0 A1 A2 = Spec.posTerm A0 A1 A2 := by
  funext j
  obtain ⟨s, h, rfl⟩ : ∃ (s h : Fin 512), j = ix2 s h := ⟨j 0, j 1, eq_ix2 j⟩
  rw [Blocks.pay0_apply]
  rfl

/-- What the one point writes back is the whole of `Spec.posTerm` of the arrays the region reads. -/
theorem flushed0_eq (c : Dev nD) (t : Fin cfg0.N) :
    (dat0 V c).flushed 3 t
      = ((cfg0.win 3).blk t).view.read (Elt Ideal) (Spec.posTerm (V c main_v0) (V c main_v5) (V c main_v6)) := by
  show (cfg0.win 3).cut (grid0.coords t) ((dat0 V c).after 3 t) = _
  rw [after0_3]
  unfold out0_3
  rw [View.canon_unit_zero zero2]
  simp only [View.ld_unit_zero (S := S512x512) zero2, View.ld_unit_zero (S := S1x512) zero2]
  rw [iblk0_0, iblk0_1, iblk0_2]
  funext j
  show k0_pay1 (F := Ideal) (V c main_v0) (V c main_v5) (V c main_v6) j
    = Spec.posTerm (V c main_v0) (V c main_v5) (V c main_v6) (((cfg0.win 3).blk t).view.emb j)
  rw [emb0_3, pay0_eq_posTerm]

/-- An index of the result array is in the point's block iff each coordinate is in the block's range. -/
theorem mem_blk0 (t : Fin cfg0.N) (i : S512x512.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v7).slice (win0_3.rect t)).set ↔ _
  rw [View.set_slice_whole, Rect.mem_set_unit]
  exact Iff.rfl

/-- The one block is the whole array. -/
theorem cover0 (i : S512x512.Idx) :
    ∃ t : Fin cfg0.N, (cfg0.win 3).flush t = true ∧ i ∈ ((cfg0.win 3).blk t).view.set := by
  have hi0 : (i 0).val < 512 := (i 0).isLt
  have hi1 : (i 1).val < 512 := (i 1).isLt
  refine ⟨t0_0, flush0_3 t0_0, ?_⟩
  rw [mem_blk0]
  intro a
  match a with
  | ⟨0, _⟩ =>
    show win0_3.index t0_0 (0 : Fin 2) * 512 ≤ (i 0).val ∧ (i 0).val < win0_3.index t0_0 (0 : Fin 2) * 512 + 512
    have e : win0_3.index t0_0 (0 : Fin 2) = 0 := rfl
    omega
  | ⟨1, _⟩ =>
    show win0_3.index t0_0 (1 : Fin 2) * 512 ≤ (i 1).val ∧ (i 1).val < win0_3.index t0_0 (1 : Fin 2) * 512 + 512
    have e : win0_3.index t0_0 (1 : Fin 2) = 0 := rfl
    omega

/-- The array the first region leaves: the batch-independent term of the arrays it reads. -/
theorem final0 (c : Dev nD) :
    (dat0 V c).arrAt 3 cfg0.N = Spec.posTerm (V c main_v0) (V c main_v5) (V c main_v6) :=
  (dat0 V c).arrAt_eq_of_cover 3 _ (fun t _ => flushed0_eq V c t) cover0

/-! ## The second region: 16 points, two batches each -/

/-- The printed index maps over the grid: the input and the output move one block of two batches per point and stay
    at block zero on the other axes; the two resident arrays stay at block zero. -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- The batch that the `p`-th matrix of point `t`'s block is. -/
def batchOf (t : Fin cfg1.N) (p : Fin 2) : Fin 32 :=
  ⟨t.val * 2 + p.val, by have h : t.val < grid1.N := t.isLt; rw [N_1] at h; have := p.isLt; omega⟩

theorem emb1_0 (t : Fin cfg1.N) (p : Fin 2) (r k : Fin 512) :
    ((cfg1.win 0).blk t).view.emb (ix3 p r k) = ix3 (batchOf t p) r k := by
  obtain ⟨e0, e1, e2, -⟩ := idx_facts1 t
  funext a; apply Fin.ext
  match a with
  | ⟨0, _⟩ => show win1_0.index t (0 : Fin 3) * 2 + 1 * p.val = t.val * 2 + p.val; omega
  | ⟨1, _⟩ => show win1_0.index t (1 : Fin 3) * 512 + 1 * r.val = r.val; omega
  | ⟨2, _⟩ => show win1_0.index t (2 : Fin 3) * 512 + 1 * k.val = k.val; omega
theorem emb1_1 (t : Fin cfg1.N) (y : S512x512.Idx) : ((cfg1.win 1).blk t).view.emb y = y := by
  obtain ⟨-, -, -, e3, e4, -⟩ := idx_facts1 t
  funext a; apply Fin.ext
  match a with
  | ⟨0, _⟩ => show win1_1.index t (0 : Fin 2) * 512 + 1 * (y 0).val = (y 0).val; omega
  | ⟨1, _⟩ => show win1_1.index t (1 : Fin 2) * 512 + 1 * (y 1).val = (y 1).val; omega
theorem emb1_2 (t : Fin cfg1.N) (y : S512x512.Idx) : ((cfg1.win 2).blk t).view.emb y = y := by
  obtain ⟨-, -, -, -, -, e5, e6, -⟩ := idx_facts1 t
  funext a; apply Fin.ext
  match a with
  | ⟨0, _⟩ => show win1_2.index t (0 : Fin 2) * 512 + 1 * (y 0).val = (y 0).val; omega
  | ⟨1, _⟩ => show win1_2.index t (1 : Fin 2) * 512 + 1 * (y 1).val = (y 1).val; omega
theorem emb1_3 (t : Fin cfg1.N) (p : Fin 2) (r h : Fin 512) :
    ((cfg1.win 3).blk t).view.emb (ix3 p r h) = ix3 (batchOf t p) r h := by
  obtain ⟨-, -, -, -, -, -, -, e7, e8, e9⟩ := idx_facts1 t
  funext a; apply Fin.ext
  match a with
  | ⟨0, _⟩ => show win1_3.index t (0 : Fin 3) * 2 + 1 * p.val = t.val * 2 + p.val; omega
  | ⟨1, _⟩ => show win1_3.index t (1 : Fin 3) * 512 + 1 * r.val = r.val; omega
  | ⟨2, _⟩ => show win1_3.index t (2 : Fin 3) * 512 + 1 * h.val = h.val; omega

/-- The input block's entry `(p, r, k)` is the input array's entry `(2t + p, r, k)`. -/
theorem read1_0 (c : Dev nD) (t : Fin cfg1.N) (p : Fin 2) (r k : Fin 512) :
    iblk1 V c 0 t (ix3 p r k) = V c main_arg0 (ix3 (batchOf t p) r k) := by
  show V c main_arg0 (((cfg1.win 0).blk t).view.emb (ix3 p r k)) = _
  rw [emb1_0]
/-- The two resident windows' blocks are the arrays they stage. -/
theorem iblk1_1 (c : Dev nD) (t : Fin cfg1.N) : iblk1 V c 1 t = V c main_v3 := by
  funext y
  show V c main_v3 (((cfg1.win 1).blk t).view.emb y) = V c main_v3 y
  rw [emb1_1]
theorem iblk1_2 (c : Dev nD) (t : Fin cfg1.N) : iblk1 V c 2 t = V c main_v7 := by
  funext y
  show V c main_v7 (((cfg1.win 2).blk t).view.emb y) = V c main_v7 y
  rw [emb1_2]

/-- The second body's stored value at `(p, r, h)`, when its first operand is batches of an array `A0` (its entry
    `(p, r, k)` being `A0`'s `(n, r, k)`), is `Spec.addTerm` at `(n, r, h)`. -/
theorem pay1_eq_addTerm (x0 : Vec Ideal S2x512x512 .f32) (x1 : Vec Ideal S512x512 .bf16) (x2 : Vec Ideal S512x512 .f32)
    (A0 : S32x512x512.Idx → EReal) (n : Fin 32) (p : Fin 2) (r h : Fin 512)
    (h0 : ∀ k : Fin 512, x0 (ix3 p r k) = A0 (ix3 n r k)) :
    k1_pay1 (F := Ideal) x0 x1 x2 (ix3 p r h) = Spec.addTerm A0 x1 x2 (ix3 n r h) := by
  rw [Blocks.pay1_apply]
  show _ = (∑ k : Fin 512, A0 (ix3 n r k) * x1 (ix2 k h)) + x2 (ix2 r h)
  refine congrArg (· + x2 (ix2 r h)) (Finset.sum_congr rfl fun k _ => ?_)
  rw [h0 k]

/-- What point `t` writes back is block `t` of `Spec.addTerm` of the arrays the region reads. -/
theorem flushed1_eq (c : Dev nD) (t : Fin cfg1.N) :
    (dat1 V c).flushed 3 t
      = ((cfg1.win 3).blk t).view.read (Elt Ideal) (Spec.addTerm (V c main_arg0) (V c main_v3) (V c main_v7)) := by
  show (cfg1.win 3).cut (grid1.coords t) ((dat1 V c).after 3 t) = _
  rw [after1_3]
  unfold out1_3
  rw [View.canon_unit_zero zero3]
  simp only [View.ld_unit_zero (S := S2x512x512) zero3, View.ld_unit_zero (S := S512x512) zero2]
  rw [iblk1_1, iblk1_2]
  funext j
  obtain ⟨p, r, h, rfl⟩ : ∃ (p : Fin 2) (r h : Fin 512), j = ix3 p r h := ⟨j 0, j 1, j 2, eq_ix3 j⟩
  show k1_pay1 (F := Ideal) (iblk1 V c 0 t) (V c main_v3) (V c main_v7) (ix3 p r h)
    = Spec.addTerm (V c main_arg0) (V c main_v3) (V c main_v7) (((cfg1.win 3).blk t).view.emb (ix3 p r h))
  rw [emb1_3]
  exact pay1_eq_addTerm (iblk1 V c 0 t) (V c main_v3) (V c main_v7) (V c main_arg0) (batchOf t p) p r h
    (fun k => read1_0 V c t p r k)

/-- An index of the result array is in point `t`'s block iff each coordinate is in the block's range on its axis. -/
theorem mem_blk1 (t : Fin cfg1.N) (i : S32x512x512.Idx) :
    i ∈ ((cfg1.win 3).blk t).view.set ↔ ∀ a : Fin 3, win1_3.index t a * S2x512x512.size a ≤ (i a).val
      ∧ (i a).val < win1_3.index t a * S2x512x512.size a + S2x512x512.size a := by
  show i ∈ ((View.whole main_v8).slice (win1_3.rect t)).set ↔ _
  rw [View.set_slice_whole, Rect.mem_set_unit]
  exact Iff.rfl

/-- Batch `n` lies in the block of point `n / 2`: the 16 blocks cover the array. -/
theorem cover1 (i : S32x512x512.Idx) :
    ∃ t : Fin cfg1.N, (cfg1.win 3).flush t = true ∧ i ∈ ((cfg1.win 3).blk t).view.set := by
  have hi0 : (i 0).val < 32 := (i 0).isLt
  have hi1 : (i 1).val < 512 := (i 1).isLt
  have hi2 : (i 2).val < 512 := (i 2).isLt
  obtain ⟨t, ht⟩ : ∃ t : Fin cfg1.N, t.val = (i 0).val / 2 :=
    ⟨⟨(i 0).val / 2, by show _ < grid1.N; rw [N_1]; omega⟩, rfl⟩
  obtain ⟨-, -, -, -, -, -, -, e7, e8, e9⟩ := idx_facts1 t
  refine ⟨t, flush1_3 t, ?_⟩
  rw [mem_blk1]
  intro a
  match a with
  | ⟨0, _⟩ =>
    show win1_3.index t (0 : Fin 3) * 2 ≤ (i 0).val ∧ (i 0).val < win1_3.index t (0 : Fin 3) * 2 + 2
    omega
  | ⟨1, _⟩ =>
    show win1_3.index t (1 : Fin 3) * 512 ≤ (i 1).val ∧ (i 1).val < win1_3.index t (1 : Fin 3) * 512 + 512
    omega
  | ⟨2, _⟩ =>
    show win1_3.index t (2 : Fin 3) * 512 ≤ (i 2).val ∧ (i 2).val < win1_3.index t (2 : Fin 3) * 512 + 512
    omega

/-- The array the second region leaves: each batch's product plus the resident term. -/
theorem final1 (c : Dev nD) :
    (dat1 V c).arrAt 3 cfg1.N = Spec.addTerm (V c main_arg0) (V c main_v3) (V c main_v7) :=
  (dat1 V c).arrAt_eq_of_cover 3 _ (fun t _ => flushed1_eq V c t) cover1

end Cert.KernelIdeal.Arrays

end
-- ==== Proof.KernelRun.lean ====
/-
  The kernel's run with its result named, at the ideal instance.

  The program is seven host operations (two slices of the projection matrix, each transposed, one of them also
  changed in float format; a slice of the position table; the bias as a one-row matrix), then the first region, then
  the second. Its run ends with every unscoped buffer at the contents obtained by folding these three segments over the
  launch memory; read at the result buffer this is the array the second region leaves, whose three operands are: the
  input as launched (no segment writes it), the transposed first half of the matrix (written by the host operations
  and untouched by the first region), and the array the first region leaves. Unfolding each gives the result as
  `Spec.twoStep` of the argument arrays through the host operations.
-/
import proofs.«142943_g2000502533916053_pallasbulk_76_2_alg».proof.Proof.Gen.KernelIdeal.Frame
import proofs.«142943_g2000502533916053_pallasbulk_76_2_alg».proof.Proof.KernelArrays
import Idealize.ShloMosaic.Lib.StableHlo.Run

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyInstance

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents
    the three segments' fold gives it and the argument arrays as launched: the launch over the program's segments, the
    last thread state read against the final state at the result buffer as well as at the arguments. -/
theorem run_named : θ_run defs (onTc (τ := τ) (main (F := F))) ⟨m, fun _ => 0, ρ⟩ (fun r => ∀ c : Dev nD,
      r.2.mem ((c.tc : Thread nD τ).loc main_v8) = W3 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v8 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end AnyInstance

/-! ## The result buffer's final contents, unfolded -/

variable (m : (ℓ : Loc nD τ sig) → Buf (Elt Ideal) ℓ) (ρ : Dev nD → PrngReg)

/-- The first 512 rows of the position table. -/
def peRows (pe : S1025x512.Idx → EReal) : S512x512.Idx → EReal :=
  extractStridedSlice S512x512 ![0, 0] pe slices_S1025x512_S512x512_0_0
/-- The first half of the projection matrix's columns, transposed. -/
def wxT (w : S512x1024.Idx → EReal) : S512x512.Idx → EReal :=
  transpose S512x512 [1, 0] (extractStridedSlice S512x512 ![0, 0] w slices_S512x1024_S512x512_0_0) transposes_S512x512_S512x512_1_0
/-- The second half, transposed. -/
def wpT (w : S512x1024.Idx → EReal) : S512x512.Idx → EReal :=
  transpose S512x512 [1, 0] (extractStridedSlice S512x512 ![0, 512] w slices_S512x1024_S512x512_0_512) transposes_S512x512_S512x512_1_0
/-- The bias as a one-row matrix. -/
def biasRow (b : S512.Idx → EReal) : S1x512.Idx → EReal :=
  broadcastInDim S1x512 ![1] bcast_S512_S1x512_1 b

/-- The host operations leave the position rows in `%0`. -/
theorem V1_v0 (c : Dev nD) : V1 m ρ c main_v0 = peRows (m ((c : Thread nD τ).loc main_arg1)) := by
  show StableHlo.after hostOps0 (W0 m ρ c) (Proc.devRef .tc main_v0) = _
  after_results
  rfl
/-- The transposed second half of the matrix in `%5`. -/
theorem V1_v5 (c : Dev nD) : V1 m ρ c main_v5 = wpT (m ((c : Thread nD τ).loc main_arg2)) := by
  show StableHlo.after hostOps0 (W0 m ρ c) (Proc.devRef .tc main_v5) = _
  after_results
  rfl
/-- The bias row in `%6`. -/
theorem V1_v6 (c : Dev nD) : V1 m ρ c main_v6 = biasRow (m ((c : Thread nD τ).loc main_arg3)) := by
  show StableHlo.after hostOps0 (W0 m ρ c) (Proc.devRef .tc main_v6) = _
  after_results
  rfl
/-- The transposed first half in `%3` (the change of float format is the identity on extended reals), which the first
    region does not touch. -/
theorem V2_v3 (c : Dev nD) : V2 m ρ c main_v3 = wxT (m ((c : Thread nD τ).loc main_arg2)) := by
  show W2 m ρ c (Proc.devRef .tc main_v3) = _
  rw [W2_of_ne m ρ c main_v3 (by decide)]
  show StableHlo.after hostOps0 (W0 m ρ c) (Proc.devRef .tc main_v3) = _
  after_results
  rfl
/-- The input enters the second region as launched. -/
theorem V2_arg0 (c : Dev nD) : V2 m ρ c main_arg0 = m ((c : Thread nD τ).loc main_arg0) := by
  show W2 m ρ c (Proc.devRef .tc main_arg0) = _
  rw [W2_of_ne m ρ c main_arg0 (by decide)]
  show StableHlo.after hostOps0 (W0 m ρ c) (Proc.devRef .tc main_arg0) = _
  after_results
/-- The first region's result enters the second as the batch-independent term. -/
theorem V2_v7 (c : Dev nD) : V2 m ρ c main_v7
    = Spec.posTerm (peRows (m ((c : Thread nD τ).loc main_arg1))) (wpT (m ((c : Thread nD τ).loc main_arg2)))
        (biasRow (m ((c : Thread nD τ).loc main_arg3))) := by
  show W2 m ρ c (Proc.devRef .tc (Pipeline.arrRef spec0 3)) = _
  rw [W2_arr m ρ c 3, Arrays.final0 (V1 m ρ) c, V1_v0, V1_v5, V1_v6]

/-- The result buffer's final contents: the two-step result of the argument arrays through the host operations. -/
theorem W3_v8 (c : Dev nD) : W3 m ρ c (Proc.devRef .tc main_v8)
    = Spec.twoStep (m ((c : Thread nD τ).loc main_arg0)) (peRows (m ((c : Thread nD τ).loc main_arg1)))
        (wxT (m ((c : Thread nD τ).loc main_arg2))) (wpT (m ((c : Thread nD τ).loc main_arg2)))
        (biasRow (m ((c : Thread nD τ).loc main_arg3))) := by
  show W3 m ρ c (Proc.devRef .tc (Pipeline.arrRef spec1 3)) = _
  rw [W3_arr m ρ c 3, Arrays.final1 (V2 m ρ) c, V2_arg0, V2_v3, V2_v7]
  rfl

/-- The run, with the result as that function of the argument arrays. -/
theorem run : θ_run defs (onTc (τ := τ) (main (F := Ideal))) ⟨m, fun _ => 0, ρ⟩ (fun r => ∀ c : Dev nD,
      r.2.mem ((c.tc : Thread nD τ).loc main_v8)
        = Spec.twoStep (m ((c : Thread nD τ).loc main_arg0)) (peRows (m ((c : Thread nD τ).loc main_arg1)))
            (wxT (m ((c : Thread nD τ).loc main_arg2))) (wpT (m ((c : Thread nD τ).loc main_arg2)))
            (biasRow (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (W3_v8 m ρ c), (h c).2⟩) (run_named m ρ)

end Cert.KernelIdeal.Run

end
-- ==== Proof.RefBlocks.lean ====
/-
  What the reference's body stores, read at an entry, at the ideal instance.

  The body handles one batch: it drops the block's leading unit axis, multiplies the 512 × 512 input by the first
  matrix, multiplies the position rows by the second matrix, adds the two products, adds the bias row to every row,
  and restores the unit axis. Its entry `(u, s, h)` is

    (Σₖ v₀(0, s, k) · v₂(k, h)  +  Σₖ v₅(s, k) · v₇(k, h))  +  v₁₁(0, h).
-/
import proofs.«142943_g2000502533916053_pallasbulk_76_2_alg».proof.Proof.Gen.ReferenceIdeal.Skeleton
import proofs.«142943_g2000502533916053_pallasbulk_76_2_alg».proof.Proof.LibMatmulNN
import Idealize.ShloMosaic.Lib.Pipeline.Value
import Idealize.ShloMosaic.Lib.ValueLayout
import Idealize.ShloMosaic.PureOps.Ideal.Laws

noncomputable section

open scoped BigOperators

namespace Cert.ReferenceIdeal.Blocks

open Cert.ReferenceIdeal Cert.ReferenceIdeal.Gen Idealize.ShloMosaic Idealize.ShloMosaic.ValueIdx

/-- The body's stored value at `(u, s, h)`: the two row-by-column products added, then the bias at column `h`. -/
theorem pay_apply (v0 : Vec Ideal S1x512x512 .f32) (v2 v5 v7 : Vec Ideal S512x512 .f32) (v11 : Vec Ideal S1x512 .f32)
    (u : Fin 1) (s h : Fin 512) :
    k0_pay1 (F := Ideal) v0 v2 v5 v7 v11 (ix3 u s h)
      = ((∑ k : Fin 512, v0 (ix3 (0 : Fin 1) s k) * v2 (ix2 k h)) + (∑ k : Fin 512, v5 (ix2 s k) * v7 (ix2 k h)))
        + v11 (ix2 (0 : Fin 1) h) := by
  unfold k0_pay1
  rw [shapeCast_ab_1ab_apply, addf_apply, addf_apply,
    Cert.LibMatmulNN.matmul_zero_apply' _ rfl rfl rfl rfl rfl rfl,
    Cert.LibMatmulNN.matmul_zero_apply' _ rfl rfl rfl rfl rfl rfl, broadcastTo_1b_ab_apply]
  simp only [shapeCast_self]
  refine congrArg (fun z => (z + ∑ k : Fin 512, v5 (ix2 s k) * v7 (ix2 k h)) + v11 (ix2 (0 : Fin 1) h))
    (Finset.sum_congr rfl fun k _ => ?_)
  rw [shapeCast_1ab_ab_apply]

end Cert.ReferenceIdeal.Blocks

end
-- ==== Proof.RefArrays.lean ====
/-
  From what a grid point writes back to the whole array, for the reference's one region, at the ideal instance.

  The region has 32 points; point `t` reads batch `t` of the input and the four resident arrays whole (the position
  rows, the two matrices, the bias row), and writes batch `t` of the result. Entry `(u, s, h)` of its block is entry
  `(t, s, h)` of `Spec.oneStep` of the five arrays as the region finds them, and the 32 one-batch blocks cover the
  array (batch `n` is the block of point `n`), so the array after the region is `Spec.oneStep` of them.
-/
import proofs.«142943_g2000502533916053_pallasbulk_76_2_alg».proof.Proof.Gen.ReferenceIdeal.Frame
import proofs.«142943_g2000502533916053_pallasbulk_76_2_alg».proof.Proof.RefBlocks
import proofs.«142943_g2000502533916053_pallasbulk_76_2_alg».proof.Proof.Spec
import Idealize.ShloMosaic.Lib.Pipeline.Value

noncomputable section

open scoped BigOperators

namespace Cert.ReferenceIdeal.Arrays

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps over the grid: the input and the output move one batch per point and stay at block zero on
    the other axes; the four resident arrays stay at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The batch point `t` works on. -/
def batchOf (t : Fin cfg0.N) : Fin 32 := ⟨t.val, by have h : t.val < grid0.N := t.isLt; rw [N_0] at h; exact h⟩

theorem emb_0 (t : Fin cfg0.N) (u : Fin 1) (s k : Fin 512) :
    ((cfg0.win 0).blk t).view.emb (ix3 u s k) = ix3 (batchOf t) s k := by
  obtain ⟨e0, e1, e2, -⟩ := idx_facts t
  have hu := u.isLt
  funext a; apply Fin.ext
  match a with
  | ⟨0, _⟩ => show win0_0.index t (0 : Fin 3) * 1 + 1 * u.val = t.val; omega
  | ⟨1, _⟩ => show win0_0.index t (1 : Fin 3) * 512 + 1 * s.val = s.val; omega
  | ⟨2, _⟩ => show win0_0.index t (2 : Fin 3) * 512 + 1 * k.val = k.val; omega
theorem emb_1 (t : Fin cfg0.N) (y : S512x512.Idx) : ((cfg0.win 1).blk t).view.emb y = y := by
  obtain ⟨-, -, -, e3, e4, -⟩ := idx_facts t
  funext a; apply Fin.ext
  match a with
  | ⟨0, _⟩ => show win0_1.index t (0 : Fin 2) * 512 + 1 * (y 0).val = (y 0).val; omega
  | ⟨1, _⟩ => show win0_1.index t (1 : Fin 2) * 512 + 1 * (y 1).val = (y 1).val; omega
theorem emb_2 (t : Fin cfg0.N) (y : S512x512.Idx) : ((cfg0.win 2).blk t).view.emb y = y := by
  obtain ⟨-, -, -, -, -, e5, e6, -⟩ := idx_facts t
  funext a; apply Fin.ext
  match a with
  | ⟨0, _⟩ => show win0_2.index t (0 : Fin 2) * 512 + 1 * (y 0).val = (y 0).val; omega
  | ⟨1, _⟩ => show win0_2.index t (1 : Fin 2) * 512 + 1 * (y 1).val = (y 1).val; omega
theorem emb_3 (t : Fin cfg0.N) (y : S512x512.Idx) : ((cfg0.win 3).blk t).view.emb y = y := by
  obtain ⟨-, -, -, -, -, -, -, e7, e8, -⟩ := idx_facts t
  funext a; apply Fin.ext
  match a with
  | ⟨0, _⟩ => show win0_3.index t (0 : Fin 2) * 512 + 1 * (y 0).val = (y 0).val; omega
  | ⟨1, _⟩ => show win0_3.index t (1 : Fin 2) * 512 + 1 * (y 1).val = (y 1).val; omega
theorem emb_4 (t : Fin cfg0.N) (y : S1x512.Idx) : ((cfg0.win 4).blk t).view.emb y = y := by
  obtain ⟨-, -, -, -, -, -, -, -, -, e9, e10, -⟩ := idx_facts t
  funext a; apply Fin.ext
  match a with
  | ⟨0, _⟩ => show win0_4.index t (0 : Fin 2) * 1 + 1 * (y 0).val = (y 0).val; omega
  | ⟨1, _⟩ => show win0_4.index t (1 : Fin 2) * 512 + 1 * (y 1).val = (y 1).val; omega
theorem emb_5 (t : Fin cfg0.N) (u : Fin 1) (s h : Fin 512) :
    ((cfg0.win 5).blk t).view.emb (ix3 u s h) = ix3 (batchOf t) s h := by
  obtain ⟨-, -, -, -, -, -, -, -, -, -, -, e11, e12, e13⟩ := idx_facts t
  have hu := u.isLt
  funext a; apply Fin.ext
  match a with
  | ⟨0, _⟩ => show win0_5.index t (0 : Fin 3) * 1 + 1 * u.val = t.val; omega
  | ⟨1, _⟩ => show win0_5.index t (1 : Fin 3) * 512 + 1 * s.val = s.val; omega
  | ⟨2, _⟩ => show win0_5.index t (2 : Fin 3) * 512 + 1 * h.val = h.val; omega

/-- The input block's entry `(u, s, k)` is the input array's entry `(t, s, k)`. -/
theorem read_0 (c : Dev nD) (t : Fin cfg0.N) (u : Fin 1) (s k : Fin 512) :
    iblk m c 0 t (ix3 u s k) = V m c main_arg0 (ix3 (batchOf t) s k) := by
  show V m c main_arg0 (((cfg0.win 0).blk t).view.emb (ix3 u s k)) = _
  rw [emb_0]
/-- The four resident windows' blocks are the arrays they stage. -/
theorem iblk_1 (c : Dev nD) (t : Fin cfg0.N) : iblk m c 1 t = V m c main_v0 := by
  funext y
  show V m c main_v0 (((cfg0.win 1).blk t).view.emb y) = V m c main_v0 y
  rw [emb_1]
theorem iblk_2 (c : Dev nD) (t : Fin cfg0.N) : iblk m c 2 t = V m c main_v2 := by
  funext y
  show V m c main_v2 (((cfg0.win 2).blk t).view.emb y) = V m c main_v2 y
  rw [emb_2]
theorem iblk_3 (c : Dev nD) (t : Fin cfg0.N) : iblk m c 3 t = V m c main_v4 := by
  funext y
  show V m c main_v4 (((cfg0.win 3).blk t).view.emb y) = V m c main_v4 y
  rw [emb_3]
theorem iblk_4 (c : Dev nD) (t : Fin cfg0.N) : iblk m c 4 t = V m c main_v5 := by
  funext y
  show V m c main_v5 (((cfg0.win 4).blk t).view.emb y) = V m c main_v5 y
  rw [emb_4]

/-- The body's stored value at `(u, s, h)`, when its first operand is a batch of an array `A0` (its entry
    `(0, s, k)` being `A0`'s `(n, s, k)`), is `Spec.oneStep` at `(n, s, h)`. -/
theorem pay_eq_oneStep (v0 : Vec Ideal S1x512x512 .f32) (wx p wp : Vec Ideal S512x512 .f32) (b : Vec Ideal S1x512 .f32)
    (A0 : S32x512x512.Idx → EReal) (n : Fin 32) (u : Fin 1) (s h : Fin 512)
    (h0 : ∀ k : Fin 512, v0 (ix3 (0 : Fin 1) s k) = A0 (ix3 n s k)) :
    k0_pay1 (F := Ideal) v0 wx p wp b (ix3 u s h) = Spec.oneStep A0 p wx wp b (ix3 n s h) := by
  rw [Blocks.pay_apply]
  show _ = ((∑ k : Fin 512, A0 (ix3 n s k) * wx (ix2 k h)) + (∑ k : Fin 512, p (ix2 s k) * wp (ix2 k h)))
    + b (ix2 (0 : Fin 1) h)
  refine congrArg (fun z => (z + ∑ k : Fin 512, p (ix2 s k) * wp (ix2 k h)) + b (ix2 (0 : Fin 1) h))
    (Finset.sum_congr rfl fun k _ => ?_)
  rw [h0 k]

/-- What point `t` writes back is block `t` of `Spec.oneStep` of the arrays the region reads. -/
theorem flushed_eq (c : Dev nD) (t : Fin cfg0.N) :
    (dats m 0 c).flushed 5 t
      = ((cfg0.win 5).blk t).view.read (Elt Ideal)
          (Spec.oneStep (V m c main_arg0) (V m c main_v0) (V m c main_v2) (V m c main_v4) (V m c main_v5)) := by
  show (cfg0.win 5).cut (grid0.coords t) ((dats m 0 c).after 5 t) = _
  rw [after0_5]
  unfold out0_5
  rw [View.canon_unit_zero zero3]
  simp only [View.ld_unit_zero (S := S1x512x512) zero3, View.ld_unit_zero (S := S512x512) zero2,
    View.ld_unit_zero (S := S1x512) zero2]
  rw [iblk_1, iblk_2, iblk_3, iblk_4]
  funext j
  obtain ⟨u, s, h, rfl⟩ : ∃ (u : Fin 1) (s h : Fin 512), j = ix3 u s h := ⟨j 0, j 1, j 2, eq_ix3 j⟩
  show k0_pay1 (F := Ideal) (iblk m c 0 t) (V m c main_v2) (V m c main_v0) (V m c main_v4) (V m c main_v5) (ix3 u s h)
    = Spec.oneStep (V m c main_arg0) (V m c main_v0) (V m c main_v2) (V m c main_v4) (V m c main_v5)
        (((cfg0.win 5).blk t).view.emb (ix3 u s h))
  rw [emb_5]
  exact pay_eq_oneStep (iblk m c 0 t) (V m c main_v2) (V m c main_v0) (V m c main_v4) (V m c main_v5)
    (V m c main_arg0) (batchOf t) u s h (fun k => read_0 m c t (0 : Fin 1) s k)

/-- An index of the result array is in point `t`'s block iff each coordinate is in the block's range on its axis. -/
theorem mem_blk (t : Fin cfg0.N) (i : S32x512x512.Idx) :
    i ∈ ((cfg0.win 5).blk t).view.set ↔ ∀ a : Fin 3, win0_5.index t a * S1x512x512.size a ≤ (i a).val
      ∧ (i a).val < win0_5.index t a * S1x512x512.size a + S1x512x512.size a := by
  show i ∈ ((View.whole main_v6).slice (win0_5.rect t)).set ↔ _
  rw [View.set_slice_whole, Rect.mem_set_unit]
  exact Iff.rfl

/-- Batch `n` is the block of point `n`: the 32 blocks cover the array. -/
theorem cover (i : S32x512x512.Idx) :
    ∃ t : Fin cfg0.N, (cfg0.win 5).flush t = true ∧ i ∈ ((cfg0.win 5).blk t).view.set := by
  have hi0 : (i 0).val < 32 := (i 0).isLt
  have hi1 : (i 1).val < 512 := (i 1).isLt
  have hi2 : (i 2).val < 512 := (i 2).isLt
  obtain ⟨t, ht⟩ : ∃ t : Fin cfg0.N, t.val = (i 0).val :=
    ⟨⟨(i 0).val, by show _ < grid0.N; rw [N_0]; exact hi0⟩, rfl⟩
  obtain ⟨-, -, -, -, -, -, -, -, -, -, -, e11, e12, e13⟩ := idx_facts t
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 512 ≤ (i 1).val ∧ (i 1).val < win0_5.index t (1 : Fin 3) * 512 + 512
    omega
  | ⟨2, _⟩ =>
    show win0_5.index t (2 : Fin 3) * 512 ≤ (i 2).val ∧ (i 2).val < win0_5.index t (2 : Fin 3) * 512 + 512
    omega

/-- The array the region leaves: the one-step result of the arrays it reads. -/
theorem final (c : Dev nD) :
    (dats m 0 c).arrAt 5 cfg0.N
      = Spec.oneStep (V m c main_arg0) (V m c main_v0) (V m c main_v2) (V m c main_v4) (V m c main_v5) :=
  (dats m 0 c).arrAt_eq_of_cover 5 _ (fun t _ => flushed_eq m c t) cover

end Cert.ReferenceIdeal.Arrays

end
-- ==== Proof.RefRun.lean ====
/-
  The reference's run with its result named, at the ideal instance.

  The program is six host operations (a slice of the position table; two slices of the projection matrix, each
  transposed; the bias as a one-row matrix) and then its one region. The region finds the input as launched and the
  four other operands at what the host operations wrote, so the array it leaves is `Spec.oneStep` of the argument
  arrays through those operations.
-/
import proofs.«142943_g2000502533916053_pallasbulk_76_2_alg».proof.Proof.Gen.ReferenceIdeal.Frame
import proofs.«142943_g2000502533916053_pallasbulk_76_2_alg».proof.Proof.RefArrays
import Idealize.ShloMosaic.Lib.StableHlo.Run

noncomputable section

namespace Cert.ReferenceIdeal.Run

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The first 512 rows of the position table. -/
def peRows (pe : S1025x512.Idx → EReal) : S512x512.Idx → EReal :=
  extractStridedSlice S512x512 ![0, 0] pe slices_S1025x512_S512x512_0_0
/-- The first half of the projection matrix's columns, transposed. -/
def wxT (w : S512x1024.Idx → EReal) : S512x512.Idx → EReal :=
  transpose S512x512 [1, 0] (extractStridedSlice S512x512 ![0, 0] w slices_S512x1024_S512x512_0_0) transposes_S512x512_S512x512_1_0
/-- The second half, transposed. -/
def wpT (w : S512x1024.Idx → EReal) : S512x512.Idx → EReal :=
  transpose S512x512 [1, 0] (extractStridedSlice S512x512 ![0, 512] w slices_S512x1024_S512x512_0_512) transposes_S512x512_S512x512_1_0
/-- The bias as a one-row matrix. -/
def biasRow (b : S512.Idx → EReal) : S1x512.Idx → EReal :=
  broadcastInDim S1x512 ![1] bcast_S512_S1x512_1 b

/-- The host operations leave the position rows in `%0`. -/
theorem V_v0 (c : Dev nD) : V m c main_v0 = peRows (m ((c : Thread nD τ).loc main_arg1)) := by
  show StableHlo.after hostOps0 (fun b => m (c, b)) (Proc.devRef .tc main_v0) = _
  after_results
  rfl
/-- The transposed first half of the matrix in `%2`. -/
theorem V_v2 (c : Dev nD) : V m c main_v2 = wxT (m ((c : Thread nD τ).loc main_arg2)) := by
  show StableHlo.after hostOps0 (fun b => m (c, b)) (Proc.devRef .tc main_v2) = _
  after_results
  rfl
/-- The transposed second half in `%4`. -/
theorem V_v4 (c : Dev nD) : V m c main_v4 = wpT (m ((c : Thread nD τ).loc main_arg2)) := by
  show StableHlo.after hostOps0 (fun b => m (c, b)) (Proc.devRef .tc main_v4) = _
  after_results
  rfl
/-- The bias row in `%5`. -/
theorem V_v5 (c : Dev nD) : V m c main_v5 = biasRow (m ((c : Thread nD τ).loc main_arg3)) := by
  show StableHlo.after hostOps0 (fun b => m (c, b)) (Proc.devRef .tc main_v5) = _
  after_results
  rfl

/-- The array the region leaves, as a function of the argument arrays. -/
theorem final_args (c : Dev nD) : (dats m 0 c).arrAt 5 cfg0.N
    = Spec.oneStep (m ((c : Thread nD τ).loc main_arg0)) (peRows (m ((c : Thread nD τ).loc main_arg1)))
        (wxT (m ((c : Thread nD τ).loc main_arg2))) (wpT (m ((c : Thread nD τ).loc main_arg2)))
        (biasRow (m ((c : Thread nD τ).loc main_arg3))) := by
  rw [Arrays.final m c, V_main_arg0, V_v0, V_v2, V_v4, V_v5]

/-- The run, with the result as that function of the argument arrays and the arguments unchanged. -/
theorem run : θ_run defs (onTc (τ := τ) (main (F := Ideal))) ⟨m, fun _ => 0, ρ⟩ (fun r => ∀ c : Dev nD,
      r.2.mem ((c.tc : Thread nD τ).loc main_v6)
        = Spec.oneStep (m ((c : Thread nD τ).loc main_arg0)) (peRows (m ((c : Thread nD τ).loc main_arg1)))
            (wxT (m ((c : Thread nD τ).loc main_arg2))) (wpT (m ((c : Thread nD τ).loc main_arg2)))
            (biasRow (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 5).trans (final_args m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.ReferenceIdeal.Run

end
-- ==== Proof.lean ====
/-
  The position-embedding projection: a batch of inputs `x` (32 × 512 × 512), a position table, a projection matrix
  `W` (512 × 1024) and a bias `b`; the result's entry `(n, s, h)` is

    Σₖ x(n, s, k) · W(h, k)  +  Σₖ pe(s, k) · W(h, 512 + k)  +  b(h).

  The kernel computes it in two regions: the first, without a grid, forms the batch-independent term
  `Σₖ pe(s, k) · W(h, 512 + k) + b(h)` once; the second, two batches per grid point, adds each batch's product
  `Σₖ x(n, s, k) · W(h, k)` to that term. The reference computes, per batch, the two products, their sum, and then adds
  the bias. On the extended reals a change of float format is the identity and a matrix product into a zero
  accumulator is the textbook sum, so the two results differ only in how three summands are grouped, and addition of
  extended reals is associative: the results are equal for all inputs, and the precondition is never opened.

  Each program's run is read off its frame certificate: what a grid point writes back is a block of one whole-array
  function (`KernelArrays`, `RefArrays`, over the bodies read at an entry in `KernelBlocks`, `RefBlocks`), the blocks
  cover the array, and the host operations before the regions are read through (`KernelRun`, `RefRun`). `Spec` holds
  the two whole-array functions and the law that joins them. The idealization rewrote nothing, so `preserves` is
  trivial.
-/
import proofs.«142943_g2000502533916053_pallasbulk_76_2_alg».proof.Defs
import proofs.«142943_g2000502533916053_pallasbulk_76_2_alg».proof.Proof.Gen.Kernel
import proofs.«142943_g2000502533916053_pallasbulk_76_2_alg».proof.Proof.Gen.Kernel.Skeleton
import proofs.«142943_g2000502533916053_pallasbulk_76_2_alg».proof.Proof.Gen.Kernel.Launch
import proofs.«142943_g2000502533916053_pallasbulk_76_2_alg».proof.Proof.Gen.Kernel.Points
import proofs.«142943_g2000502533916053_pallasbulk_76_2_alg».proof.Proof.Gen.Kernel.Frame
import proofs.«142943_g2000502533916053_pallasbulk_76_2_alg».proof.Proof.Gen.KernelIdeal
import proofs.«142943_g2000502533916053_pallasbulk_76_2_alg».proof.Proof.Gen.KernelIdeal.Skeleton
import proofs.«142943_g2000502533916053_pallasbulk_76_2_alg».proof.Proof.Gen.KernelIdeal.Launch
import proofs.«142943_g2000502533916053_pallasbulk_76_2_alg».proof.Proof.Gen.KernelIdeal.Points
import proofs.«142943_g2000502533916053_pallasbulk_76_2_alg».proof.Proof.Gen.KernelIdeal.Frame
import proofs.«142943_g2000502533916053_pallasbulk_76_2_alg».proof.Proof.Gen.ReferenceIdeal
import proofs.«142943_g2000502533916053_pallasbulk_76_2_alg».proof.Proof.Gen.ReferenceIdeal.Skeleton
import proofs.«142943_g2000502533916053_pallasbulk_76_2_alg».proof.Proof.Gen.ReferenceIdeal.Launch
import proofs.«142943_g2000502533916053_pallasbulk_76_2_alg».proof.Proof.Gen.ReferenceIdeal.Points
import proofs.«142943_g2000502533916053_pallasbulk_76_2_alg».proof.Proof.Gen.ReferenceIdeal.Frame
import proofs.«142943_g2000502533916053_pallasbulk_76_2_alg».proof.Proof.Gen.Pre_finite_inputs
import proofs.«142943_g2000502533916053_pallasbulk_76_2_alg».proof.Proof.KernelRun
import proofs.«142943_g2000502533916053_pallasbulk_76_2_alg».proof.Proof.RefRun
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ
/-- So does its idealization. -/
theorem frame_kernelIdeal : Cert.frame_KernelIdeal := fun m ρ _ => Cert.KernelIdeal.Gen.frame m ρ
/-- So does the idealized reference. -/
theorem frame_referenceIdeal : Cert.frame_ReferenceIdeal := fun m ρ _ => Cert.ReferenceIdeal.Gen.frame m ρ

/-- The idealization rewrote no operation. -/
theorem preserves : Cert.preserves_Kernel_KernelIdeal := trivial

/-- From memories agreeing on the arguments, the idealized kernel ends with the two-step result of the arguments and
    the idealized reference with the one-step result of the same arrays: equal, by associativity of addition. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Run.run m' ρ')
  rw [(hagree c).1, (hagree c).2.1, (hagree c).2.2.1, (hagree c).2.2.2]
  exact (Cert.Spec.twoStep_eq_oneStep _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
